-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S2x1x1 : Shape := ⟨3, ![2, 1, 1]⟩
abbrev S128x8192 : Shape := ⟨2, ![128, 8192]⟩
abbrev S128x1 : Shape := ⟨2, ![128, 1]⟩
abbrev S1x1x1 : Shape := ⟨3, ![1, 1, 1]⟩
abbrev S1x1 : Shape := ⟨2, ![1, 1]⟩
abbrev S128 : Shape := ⟨1, ![128]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x1, .i32⟩
  | .local _ .vmem, ⟨3, _⟩ => ⟨S128x1, .i32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  iota_S128x8192_d1_w32 : S128x8192.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192, .i32⟩
  | .hbm, ⟨3, _⟩ => ⟨S1x8192, .i32⟩
  | .hbm, ⟨4, _⟩ => ⟨S8192x1, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Pieces.lean ====
/-
  What one run of the kernel body leaves behind, as values.  The body keeps a 1 × 1 accumulator
  between grid points.  At the first row tile of a core it stores zero there, reads it back and stores
  "accumulator + block sum"; at the other tiles it only does the latter; at the last tile it also copies
  the accumulator, read back, into the 1 × 1 × 1 output block.  Each store covers its whole buffer, so
  what a buffer holds afterwards is the last payload stored, and a load after a store reads that payload:

      first tile  : accumulator = pay2 (logits, thresholds, pay1)          (pay1 = the zero block)
      other tiles : accumulator = pay2 (logits, thresholds, accumulator before)
      last tile   : output block = pay3 (pay2 (logits, thresholds, accumulator before)).

  These hold at any reading of the floats; the arithmetic inside pay2 is opened elsewhere.
-/
import proofs.«105509_j6648609374567_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a core: the accumulator ends at the block's payload over the zero block just stored. -/
theorem scratch_first (c : Dev nD) (i : grid0.Coords) (arg2 : Memref sig .tc .vmem S128x8192 .f32) (harg2 : arg2.IsWhole) (arg3 : Memref sig .tc .vmem S128x1 .i32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S128x8192 .f32) (x1 : Vec F S128x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S128x8192) hz2,
    View.ld_unit_zero (S := S128x1) hz2]

/-- A middle tile: the accumulator ends at the block's payload over what it held. -/
theorem scratch_middle (c : Dev nD) (i : grid0.Coords) (arg2 : Memref sig .tc .vmem S128x8192 .f32) (harg2 : arg2.IsWhole) (arg3 : Memref sig .tc .vmem S128x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S128x8192 .f32) (x1 : Vec F S128x1 .i32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S128x8192) hz2,
    View.ld_unit_zero (S := S128x1) hz2, View.ld_unit_zero (S := S1x1) hz2]

/-- The last tile: the accumulator likewise, -/
theorem scratch_last (c : Dev nD) (i : grid0.Coords) (arg2 : Memref sig .tc .vmem S128x8192 .f32) (harg2 : arg2.IsWhole) (arg3 : Memref sig .tc .vmem S128x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S128x8192 .f32) (x1 : Vec F S128x1 .i32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S128x8192) hz2,
    View.ld_unit_zero (S := S128x1) hz2, View.ld_unit_zero (S := S1x1) hz2]

/-- and the output block is that accumulator with a unit axis added. -/
theorem out_last (c : Dev nD) (i : grid0.Coords) (arg2 : Memref sig .tc .vmem S128x8192 .f32) (harg2 : arg2.IsWhole) (arg3 : Memref sig .tc .vmem S128x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S128x8192 .f32) (x1 : Vec F S128x1 .i32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S128x8192) hz2,
    View.ld_unit_zero (S := S128x1) hz2, View.ld_unit_zero (S := S1x1) hz2]

end Cert.KernelIdeal.Pieces

end
-- ==== Proof.Entry.lean ====
/-
  One entry of the loss.  For a logit x and a mask bit b (b = 1 where the column number lies
  below the row's threshold) both programs compute

      softplus x − (x if b else 0),      softplus x = max x 0 + log (1 + exp (−|x|)),  |x| = max x (−x),

  and then add these up over all 8192 × 8192 entries and divide by 2^26.  The two programs spell
  the entry differently: the kernel selects x or 0 by the mask and writes −|x| as 0 − |x|; the
  reference multiplies x by the mask converted to 0.0 / 1.0 and negates |x|.  Both also guard
  softplus by the test "x − 0 ≠ x − 0" (a NaN test), which no extended real passes.  On the extended
  reals x · 1 = x, x · 0 = 0, 0 − a = −a, x − 0 = x and x + 0 = x hold everywhere, the infinities
  included, so the two spellings are one function with no finiteness needed.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- softplus on the extended reals, in the numerically stable form both programs use. -/
def softplus (x : EReal) : EReal := max x 0 + Ideal.log1p (Ideal.exp (-(max x (-x))))

/-- One entry of the loss: softplus x, less x where the mask bit is set. -/
def entry (x : EReal) (b : BitVec 1) : EReal := softplus x - Scalar.select b x 0

/-- The mask bit of column q in a row whose threshold is the 32-bit word t: the signed test q < t. -/
def maskBit (q : ℕ) (t : BitVec 32) : BitVec 1 := IntOp.cmpi .slt (BitVec.ofNat 32 q) t

/-- The kernel's spelling of the entries of a block, read at an index: the NaN guard is never taken,
    x − 0 = x, 0 − |x| = −|x|. -/
theorem kernel_entry {s : Shape} (v3 : FVec Ideal s .f32) (v8 : IVec s 1) (i : s.Idx) :
    (subf (select (cmpf .one (subf v3 (broadcast s (Scalar.ofBits (F := Ideal) .f32 0x00000000#32))) (subf v3 (broadcast s (Scalar.ofBits (F := Ideal) .f32 0x00000000#32))))
        (addf v3 (broadcast s (Scalar.ofBits (F := Ideal) .f32 0x00000000#32)))
        (addf (maximumf v3 (broadcast s (Scalar.ofBits (F := Ideal) .f32 0x00000000#32)))
          (log1p (exp (subf (broadcast s (Scalar.ofBits (F := Ideal) .f32 0x00000000#32)) (absf (subf v3 (broadcast s (Scalar.ofBits (F := Ideal) .f32 0x00000000#32)))))))))
      (select v8 v3 (broadcast s (Scalar.ofBits (F := Ideal) .f32 0x00000000#32)))) i = entry (v3 i) (v8 i) := by
  show (Scalar.select (Ideal.cmp .one (v3 i - Ideal.ofBits .f32 0x00000000#32) (v3 i - Ideal.ofBits .f32 0x00000000#32)) (v3 i + Ideal.ofBits .f32 0x00000000#32)
      (max (v3 i) (Ideal.ofBits .f32 0x00000000#32) + Ideal.log1p (Ideal.exp (Ideal.ofBits .f32 0x00000000#32 - max (v3 i - Ideal.ofBits .f32 0x00000000#32) (-(v3 i - Ideal.ofBits .f32 0x00000000#32))))))
    - Scalar.select (v8 i) (v3 i) (Ideal.ofBits .f32 0x00000000#32) = _
  rw [Ideal.ofBits_zero_f32]
  simp only [sub_zero, zero_sub, Ideal.cmp, ne_eq, not_true_eq_false, decide_false, BitVec.ofBool_false]
  exact congrArg (· - Scalar.select (v8 i) (v3 i) 0) (if_neg (by decide))

/-- x times the mask bit read as 0.0 / 1.0 is x where the bit is set and 0 elsewhere. -/
theorem mul_mask (x : EReal) (b : BitVec 1) : x * ((b.toNat : ℝ) : EReal) = Scalar.select b x 0 := by
  by_cases hb : b = 1#1
  · subst hb
    rw [select_one]
    simp
  · obtain rfl := eq_zero_of_ne_one hb
    rw [select_zero]
    simp

/-- The reference's spelling of one entry. -/
theorem ref_entry (x : EReal) (b : BitVec 1) :
    FloatOps.subf (F := Ideal) (φ := .f32)
      (Scalar.select (FloatOps.cmpf (F := Ideal) (φ := .f32) .une (FloatOps.subf x (FloatOps.ofBits (F := Ideal) .f32 0x00000000#32)) (FloatOps.subf x (FloatOps.ofBits (F := Ideal) .f32 0x00000000#32)))
        (FloatOps.addf x (FloatOps.ofBits (F := Ideal) .f32 0x00000000#32))
        (FloatOps.addf (FloatOps.maximumf x (FloatOps.ofBits (F := Ideal) .f32 0x00000000#32))
          (FloatOps.hostUnary .log1p (FloatOps.hostUnary .exp (FloatOps.hostNegf (FloatOps.hostAbsf (FloatOps.subf x (FloatOps.ofBits (F := Ideal) .f32 0x00000000#32))))))))
      (FloatOps.mulf x (FloatOps.uitofp (F := Ideal) .f32 b)) = entry x b := by
  show (Scalar.select (Ideal.cmp .une (x - Ideal.ofBits .f32 0x00000000#32) (x - Ideal.ofBits .f32 0x00000000#32)) (x + Ideal.ofBits .f32 0x00000000#32)
      (max x (Ideal.ofBits .f32 0x00000000#32) + Ideal.log1p (Ideal.exp (-(max (x - Ideal.ofBits .f32 0x00000000#32) (-(x - Ideal.ofBits .f32 0x00000000#32)))))))
    - x * ((b.toNat : ℝ) : EReal) = _
  rw [Ideal.ofBits_zero_f32, mul_mask]
  simp only [sub_zero, Ideal.cmp, ne_eq, not_true_eq_false, decide_false, BitVec.ofBool_false]
  exact congrArg (· - Scalar.select b x 0) (if_neg (by decide))

end Cert.Loss

end
-- ==== Proof.Spec.lean ====
/-
  The loss as one function of the two argument arrays, and the way the kernel groups it.

  With e(i, q) the entry of row i and column q (Entry.lean), the loss is

      mean = (0 + ∑ i < 8192, ∑ q < 8192, e(i, q)) / 2^26.

  The kernel walks the rows in blocks of 128: block n holds rows 128 n … 128 n + 127; core c takes
  blocks 32 c … 32 c + 31 and adds their sums into one accumulator; the host adds the two cores'
  sums.  Regrouping a finite sum this way uses only that addition on the extended reals is
  commutative and associative, so nothing here asks the entries to be finite.
-/
import proofs.«105509_j6648609374567_2_alg».proof.Proof.Entry

noncomputable section

namespace Cert.Loss

open Idealize.ShloMosaic Idealize.ShloMosaic.ValueIdx

/-- A sum over b · a consecutive naturals, cut into a runs of b. -/
theorem sum_range_blocks {M : Type*} [AddCommMonoid M] (f : ℕ → M) (b : ℕ) :
    ∀ a : ℕ, ∑ r ∈ Finset.range (b * a), f r = ∑ i ∈ Finset.range a, ∑ j ∈ Finset.range b, f (b * i + j)
  | 0 => by simp
  | a + 1 => by
    rw [Nat.mul_succ, Finset.sum_range_add, sum_range_blocks f b a, Finset.sum_range_succ]

variable (x : (⟨2, ![8192, 8192]⟩ : Shape).Idx → EReal) (t : (⟨1, ![8192]⟩ : Shape).Idx → BitVec 32)

/-- The sum of row r's entries (0 past the last row, so that r ranges over every natural). -/
def rowSum (r : ℕ) : EReal :=
  if h : r < 8192 then ∑ q : Fin 8192, entry (x (ix2 ⟨r, h⟩ q)) (maskBit q.val (t (ix1 ⟨r, h⟩))) else 0

/-- The sum of block n: its 128 rows. -/
def blockSum (n : ℕ) : EReal := ∑ p ∈ Finset.range 128, rowSum x t (128 * n + p)

/-- The sum core c accumulates: its 32 blocks. -/
def coreSum (c : ℕ) : EReal := ∑ s ∈ Finset.range 32, blockSum x t (32 * c + s)

/-- The sum of all entries. -/
def total : EReal := ∑ i : Fin 8192, ∑ q : Fin 8192, entry (x (ix2 i q)) (maskBit q.val (t (ix1 i)))

/-- The mean loss: the total from zero, over 2^26 (the divisor kept as the word both programs print). -/
def mean : EReal := Ideal.div (Ideal.ofBits .f32 0x00000000#32 + total x t) (Ideal.ofBits .f32 0x4C800000#32)

theorem total_eq_rows : total x t = ∑ r ∈ Finset.range 8192, rowSum x t r := by
  rw [← Fin.sum_univ_eq_sum_range (fun r => rowSum x t r) 8192]
  exact Finset.sum_congr rfl fun i _ => by unfold rowSum; rw [dif_pos i.isLt]

/-- The two cores' sums make the total. -/
theorem cores_total : coreSum x t 0 + coreSum x t 1 = total x t := by
  rw [total_eq_rows, show (8192 : ℕ) = 128 * 64 from rfl, sum_range_blocks (rowSum x t) 128 64,
    show (64 : ℕ) = 32 * 2 from rfl, sum_range_blocks (fun n => ∑ p ∈ Finset.range 128, rowSum x t (128 * n + p)) 32 2,
    Finset.sum_range_succ, Finset.sum_range_one]
  rfl

end Cert.Loss

end
-- ==== Proof.Payload.lean ====
/-
  The arithmetic of one run of the body, over the extended reals.  From a 128 × 8192 block of logits
  and the 128 thresholds of its rows the body forms the block's entries (Entry.lean; the mask bit of
  (p, q) is "q < threshold of row p", the column numbers an iota along the lanes, the thresholds
  broadcast along them), adds each row up over the lanes, adds the 128 row sums, and adds that to the
  accumulator.  So at its one index the new accumulator is

      accumulator + ∑ p < 128, ∑ q < 8192, entry (logit (p, q)) (q < threshold p).

  The zero block the first tile stores is 0, and the output block is the accumulator at (0, 0).
-/
import proofs.«105509_j6648609374567_2_alg».proof.Proof.Gen.KernelIdeal.Skeleton
import proofs.«105509_j6648609374567_2_alg».proof.Proof.Spec
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Loss

/-- The mask of a block: column number below the row's threshold. -/
def maskVec (v5 : Vec Ideal S128x1 .i32) : IVec S128x8192 1 :=
  cmpi .slt (iota .tc S128x8192 32 [1] iota_S128x8192_d1_w32)
    (broadcastTo S128x8192 (shapeCast S128x1 v5 shapeCasts_S128x1_S128x1) broadcasts_S128x1_S128x8192)

theorem maskVec_apply (v5 : Vec Ideal S128x1 .i32) (p : Fin 128) (q : Fin 8192) :
    maskVec v5 (ix2 p q) = maskBit q.val (v5 (ix2 p 0)) := by
  show IntOp.cmpi .slt (iota .tc S128x8192 32 [1] iota_S128x8192_d1_w32 (ix2 p q))
      (broadcastTo S128x8192 (shapeCast S128x1 v5 shapeCasts_S128x1_S128x1) broadcasts_S128x1_S128x8192 (ix2 p q)) = _
  rw [iota_single_apply, broadcastTo_apply _ broadcasts_S128x1_S128x8192 (ix2 p q) (ix2 p 0) (fun a => match a with
    | ⟨0, _⟩ => by show p.val = if (128 : Nat) = 1 then 0 else p.val; rw [if_neg (by decide)]
    | ⟨1, _⟩ => by show 0 = if (1 : Nat) = 1 then 0 else q.val; rw [if_pos rfl]), shapeCast_self]
  rfl

/-- The block's entries, as the body computes them. -/
def entries (v3 : Vec Ideal S128x8192 .f32) (v5 : Vec Ideal S128x1 .i32) : FVec Ideal S128x8192 .f32 :=
  subf (select (cmpf .one (subf v3 (broadcast S128x8192 (Scalar.ofBits (F := Ideal) .f32 0x00000000#32))) (subf v3 (broadcast S128x8192 (Scalar.ofBits (F := Ideal) .f32 0x00000000#32))))
      (addf v3 (broadcast S128x8192 (Scalar.ofBits (F := Ideal) .f32 0x00000000#32)))
      (addf (maximumf v3 (broadcast S128x8192 (Scalar.ofBits (F := Ideal) .f32 0x00000000#32)))
        (log1p (exp (subf (broadcast S128x8192 (Scalar.ofBits (F := Ideal) .f32 0x00000000#32)) (absf (subf v3 (broadcast S128x8192 (Scalar.ofBits (F := Ideal) .f32 0x00000000#32)))))))))
    (select (maskVec v5) v3 (broadcast S128x8192 (Scalar.ofBits (F := Ideal) .f32 0x00000000#32)))

theorem entries_apply (v3 : Vec Ideal S128x8192 .f32) (v5 : Vec Ideal S128x1 .i32) (p : Fin 128) (q : Fin 8192) :
    entries v3 v5 (ix2 p q) = entry (v3 (ix2 p q)) (maskBit q.val (v5 (ix2 p 0))) :=
  (kernel_entry v3 (maskVec v5) (ix2 p q)).trans (congrArg (entry (v3 (ix2 p q))) (maskVec_apply v5 p q))

/-- The row sums of a block: the sum over the lanes, from zero. -/
def laneSums (w : FVec Ideal S128x8192 .f32) : FVec Ideal S128 .f32 :=
  multiReduction .add [1] S128 w 0x00000000#32 reduces_S128x8192_S128 (.inl rfl) rfl

theorem laneSums_apply (w : FVec Ideal S128x8192 .f32) (p : Fin 128) :
    laneSums w (ix1 p) = ∑ q : Fin 8192, w (ix2 p q) := by
  unfold laneSums
  refine (Ideal.multiReduction_add_single w 0x00000000#32 reduces_S128x8192_S128 (.inl rfl) rfl (ix1 p)).trans ?_
  refine Finset.sum_congr rfl fun k _ => congrArg w ?_
  funext a
  match a with
  | ⟨0, _⟩ => rfl
  | ⟨1, _⟩ => rfl

/-- The sum of the 128 row sums, as a 1 × 1 block. -/
def blockTotal (w : FVec Ideal S128x8192 .f32) : FVec Ideal S1x1 .f32 :=
  shapeCast S1x1 (multiReduction .add [0] S1 (shapeCast S128x1 (laneSums w) shapeCasts_S128_S128x1) 0x00000000#32
    reduces_S128x1_S1 (.inl rfl) rfl) shapeCasts_S1_S1x1

theorem blockTotal_apply (w : FVec Ideal S128x8192 .f32) (z : S1x1.Idx) :
    blockTotal w z = ∑ p : Fin 128, ∑ q : Fin 8192, w (ix2 p q) := by
  unfold blockTotal
  have hz0 : (z 0).val < 1 := (z 0).isLt
  have hz1 : (z 1).val < 1 := (z 1).isLt
  refine (shapeCast_apply _ shapeCasts_S1_S1x1 z (ix1 (0 : Fin 1)) ?_).trans ?_
  · rw [Shape.rowMajor_val_one, Shape.rowMajor_val_two]
    show 0 = (z 0).val * 1 + (z 1).val
    omega
  refine (Ideal.multiReduction_add_total _ 0x00000000#32 reduces_S128x1_S1 (fun b => match b with | ⟨0, _⟩ => rfl)
    (.inl rfl) rfl (ix1 (0 : Fin 1))).trans ?_
  rw [sum_idx2]
  refine Finset.sum_congr rfl fun p _ => ?_
  rw [Fin.sum_univ_one]
  refine (shapeCast_apply _ shapeCasts_S128_S128x1 (ix2 p (0 : Fin 1)) (ix1 p) ?_).trans (laneSums_apply w p)
  rw [Shape.rowMajor_val_one, Shape.rowMajor_val_two]
  show p.val = p.val * 1 + 0
  omega

/-- The accumulating payload is the accumulator plus the block's total, by its own text. -/
theorem pay2_eq (v3 : Vec Ideal S128x8192 .f32) (v5 : Vec Ideal S128x1 .i32) (v30 : Vec Ideal S1x1 .f32) :
    k0_pay2 (F := Ideal) v3 v5 v30 = shapeCast S1x1 (addf v30 (blockTotal (entries v3 v5))) shapeCasts_S1x1_S1x1 := rfl

/-- The new accumulator: the old one plus the sum of the block's entries. -/
theorem pay2_apply (v3 : Vec Ideal S128x8192 .f32) (v5 : Vec Ideal S128x1 .i32) (v30 : Vec Ideal S1x1 .f32) (z : S1x1.Idx) :
    k0_pay2 (F := Ideal) v3 v5 v30 z
      = v30 z + ∑ p : Fin 128, ∑ q : Fin 8192, entry (v3 (ix2 p q)) (maskBit q.val (v5 (ix2 p 0))) := by
  rw [pay2_eq, shapeCast_self]
  show v30 z + blockTotal (entries v3 v5) z = _
  rw [blockTotal_apply]
  simp only [entries_apply]

/-- The zero block is 0. -/
theorem pay1_apply (z : S1x1.Idx) : k0_pay1 (F := Ideal) z = 0 := by
  show shapeCast S1x1 (broadcast S1x1 (Scalar.ofBits (F := Ideal) .f32 0x00000000#32)) shapeCasts_S1x1_S1x1 z = 0
  rw [shapeCast_self]
  exact Ideal.ofBits_zero_f32

/-- The output block is the accumulator's one entry. -/
theorem pay3_apply (v38 : Vec Ideal S1x1 .f32) (y : S1x1x1.Idx) :
    k0_pay3 (F := Ideal) v38 y = v38 (ix2 (0 : Fin 1) (0 : Fin 1)) := by
  have h0 : (y 0).val < 1 := (y 0).isLt
  have h1 : (y 1).val < 1 := (y 1).isLt
  have h2 : (y 2).val < 1 := (y 2).isLt
  show shapeCast S1x1x1 v38 shapeCasts_S1x1_S1x1x1 y = _
  refine shapeCast_apply _ shapeCasts_S1x1_S1x1x1 y (ix2 (0 : Fin 1) (0 : Fin 1)) ?_
  rw [Shape.rowMajor_val_two, Shape.rowMajor_val_three]
  show 0 * 1 + 0 = ((y 0).val * 1 + (y 1).val) * 1 + (y 2).val
  omega

end Cert.KernelIdeal.Payload

end
-- ==== Proof.Blocks.lean ====
/-
  Which rows a grid point sees.  Point t (core t / 32, row tile t % 32) is handed block row t of both
  inputs — the index maps send (core, tile) to block row 32 · core + tile, which is t itself — so entry
  (p, q) of its logit block is the logit of row 128 t + p, column q, and entry (p, 0) of its threshold
  block is the threshold of row 128 t + p.  The thresholds reach the kernel as a column: the host
  reshapes the [8192] argument to [8192, 1] before the call, which keeps row r at (r, 0).
-/
import proofs.«105509_j6648609374567_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Both input windows sit at block row t, block column 0, at every point t: decided over the 64 points. -/
theorem in_idx : ∀ t : Fin cfg0.N, win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, win0_0.index t (0 : Fin 2) = t.val ∧ win0_0.index t (1 : Fin 2) = 0
      ∧ win0_1.index t (0 : Fin 2) = t.val ∧ win0_1.index t (1 : Fin 2) = 0)

/-- The logit block of point t at (p, q) is the logit of row 128 t + p, column q. -/
theorem logits_apply (c : Dev nD) (t : Fin cfg0.N) (p : Fin 128) (q : Fin 8192) (hr : 128 * t.val + p.val < 8192) :
    (iblk m c 0 t : Vec F S128x8192 .f32) (ix2 p q)
      = m ((c : Thread nD τ).loc main_arg0) (ix2 ⟨128 * t.val + p.val, hr⟩ q) := by
  obtain ⟨h00, h01, -, -⟩ := in_idx t
  unfold iblk
  rw [View.read_apply]
  show V m c main_arg0 _ = _
  rw [V_main_arg0]
  congr 1
  funext a
  apply Fin.ext
  match a with
  | ⟨0, _⟩ => show win0_0.index t 0 * 128 + 1 * p.val = 128 * t.val + p.val; rw [h00]; omega
  | ⟨1, _⟩ => show win0_0.index t 1 * 8192 + 1 * q.val = q.val; rw [h01]; omega

/-- The region finds the thresholds as the host's reshape of the argument to a column. -/
theorem V_thresholds (c : Dev nD) :
    (V m c main_v0 : S8192x1.Idx → Elt F .i32) = shapeCast S8192x1 (m ((c : Thread nD τ).loc main_arg1)) shapeCasts_S8192_S8192x1 := by
  show StableHlo.after hostOps0 (fun b => m (c, b)) (Proc.devRef .tc main_v0) = _
  after_results
  rfl

/-- The threshold block of point t at (p, 0) is the threshold of row 128 t + p. -/
theorem thresholds_apply (c : Dev nD) (t : Fin cfg0.N) (p : Fin 128) (hr : 128 * t.val + p.val < 8192) :
    (iblk m c 1 t : Vec F S128x1 .i32) (ix2 p (0 : Fin 1))
      = m ((c : Thread nD τ).loc main_arg1) (ix1 ⟨128 * t.val + p.val, hr⟩) := by
  obtain ⟨-, -, h10, h11⟩ := in_idx t
  unfold iblk
  rw [View.read_apply]
  show V m c main_v0 _ = _
  rw [V_thresholds]
  refine shapeCast_apply _ shapeCasts_S8192_S8192x1 _ (ix1 ⟨128 * t.val + p.val, hr⟩) ?_
  rw [Shape.rowMajor_val_one, Shape.rowMajor_val_two]
  show 128 * t.val + p.val = (win0_1.index t 0 * 128 + 1 * p.val) * 1 + (win0_1.index t 1 * 1 + 1 * 0)
  rw [h10, h11]
  omega

end Cert.KernelIdeal.Blocks

end
-- ==== Proof.Accum.lean ====
/-
  The accumulator across the grid.  Point t = 32 · core + tile.  At tile 0 the accumulator is reset to
  zero and receives the block's sum; at every later tile it receives the block's sum on top of what the
  point before left.  By induction along a core's 32 tiles, after point t it holds

      0 + ∑ s ≤ t % 32, blockSum (32 · (t / 32) + s),

  the block of point n being rows 128 n … 128 n + 127 of the arguments.  At the core's last tile
  (t % 32 = 31) that is 0 + coreSum (t / 32), and the output block the body stores there is this number.
-/
import proofs.«105509_j6648609374567_2_alg».proof.Proof.Pieces
import proofs.«105509_j6648609374567_2_alg».proof.Proof.Payload
import proofs.«105509_j6648609374567_2_alg».proof.Proof.Blocks

set_option maxRecDepth 16384

noncomputable section

open Idealize.ShloMosaic Idealize.ShloMosaic.TcCoe Idealize.SL.Sem

namespace Cert.KernelIdeal.Accum

open Cert.KernelIdeal Cert.KernelIdeal.Gen Idealize.ShloMosaic.ValueIdx Cert.Loss
open Cert.KernelIdeal.Pieces Cert.KernelIdeal.Payload Cert.KernelIdeal.Blocks

variable (m : (ℓ : Loc nD τ sig) → Buf (Elt Ideal) ℓ)

/-- The two argument arrays on core c: the logits and the rows' thresholds. -/
abbrev logits (c : Dev nD) : (⟨2, ![8192, 8192]⟩ : Shape).Idx → EReal := m ((c : Thread nD τ).loc main_arg0)
abbrev thresholds (c : Dev nD) : (⟨1, ![8192]⟩ : Shape).Idx → BitVec 32 := m ((c : Thread nD τ).loc main_arg1)

/-- The entries of point t's blocks add up to the sum of block t of the arguments. -/
theorem block_eq (c : Dev nD) (t : Fin cfg0.N) :
    ∑ p : Fin 128, ∑ q : Fin 8192, entry ((iblk m c 0 t : Vec Ideal S128x8192 .f32) (ix2 p q))
        (maskBit q.val ((iblk m c 1 t : Vec Ideal S128x1 .i32) (ix2 p (0 : Fin 1))))
      = blockSum (logits m c) (thresholds m c) t.val := by
  have h64 : t.val < 64 := lt_of_lt_of_eq t.isLt N_0
  unfold blockSum
  rw [← Fin.sum_univ_eq_sum_range (fun p => rowSum (logits m c) (thresholds m c) (128 * t.val + p)) 128]
  refine Finset.sum_congr rfl fun p _ => ?_
  have hr : 128 * t.val + p.val < 8192 := by have := p.isLt; omega
  unfold rowSum
  rw [dif_pos hr]
  refine Finset.sum_congr rfl fun q _ => ?_
  rw [logits_apply m c t p q hr, thresholds_apply m c t p hr]

/-- One run of the body at point t adds block t's sum to the accumulator. -/
theorem step_apply (c : Dev nD) (t : Fin cfg0.N) (acc : Vec Ideal S1x1 .f32) (z : S1x1.Idx) :
    k0_pay2 (F := Ideal) (iblk m c 0 t) (iblk m c 1 t) acc z = acc z + blockSum (logits m c) (thresholds m c) t.val :=
  (pay2_apply (iblk m c 0 t) (iblk m c 1 t) acc z).trans (congrArg (acc z + ·) (block_eq m c t))

/-- At a core's first tile the accumulator is the body's result over the zero block. -/
theorem acc_first (c : Dev nD) (t : Fin cfg0.N) (h0 : t.val % 32 = 0) :
    (outsAt0 m c t.val t.isLt).2 = k0_pay2 (F := Ideal) (iblk m c 0 t) (iblk m c 1 t) (k0_pay1 (F := Ideal)) := by
  have h1 : ¬t.val % 32 = 31 := by omega
  rw [outsAt0_A m c t h0 h1]
  exact scratch_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At any other tile it is the body's result over what the point before left. -/
theorem acc_next (c : Dev nD) (t : Fin cfg0.N) (h0 : ¬t.val % 32 = 0) :
    (outsAt0 m c t.val t.isLt).2 = k0_pay2 (F := Ideal) (iblk m c 0 t) (iblk m c 1 t)
      (outsAt0 m c (t.val - 1) (Nat.lt_of_le_of_lt (Nat.sub_le _ _) t.isLt)).2 := by
  by_cases h1 : t.val % 32 = 31
  · rw [outsAt0_C m c t h0 h1]
    exact scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _
  · rw [outsAt0_B m c t h0 h1]
    exact scratch_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

/-- At a core's last tile the output block is the accumulator with a unit axis added. -/
theorem out_flush (c : Dev nD) (t : Fin cfg0.N) (h0 : ¬t.val % 32 = 0) (h1 : t.val % 32 = 31) :
    (outsAt0 m c t.val t.isLt).1 = k0_pay3 (F := Ideal) (outsAt0 m c t.val t.isLt).2 := by
  rw [outsAt0_C m c t h0 h1]
  exact (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans
    (congrArg k0_pay3 (scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm)

/-- THE FOLD: the accumulator after point t. -/
theorem acc_fold (c : Dev nD) (t : ℕ) (ht : t < cfg0.N) (z : S1x1.Idx) :
    (outsAt0 m c t ht).2 z
      = 0 + ∑ s ∈ Finset.range (t % 32 + 1), blockSum (logits m c) (thresholds m c) (32 * (t / 32) + s) := by
  have h' : 32 * (t / 32) + t % 32 < cfg0.N := by rw [Nat.div_add_mod]; exact ht
  refine (congrFun (Pipeline.eq_accAt_of_mod (fun n h => (outsAt0 m c n h).2) 32
      (fun n h => k0_pay2 (F := Ideal) (iblk m c 0 ⟨n, h⟩) (iblk m c 1 ⟨n, h⟩) (k0_pay1 (F := Ideal)))
      (fun n h acc => k0_pay2 (F := Ideal) (iblk m c 0 ⟨n, h⟩) (iblk m c 1 ⟨n, h⟩) acc)
      (fun n h h0 => acc_first m c ⟨n, h⟩ h0)
      (fun n h hne => acc_next m c ⟨n + 1, h⟩ hne)
      (by decide) t ht h') z).trans ?_
  exact Pipeline.accAt_add_apply _ _ (fun _ => (0 : EReal)) (fun n _ => blockSum (logits m c) (thresholds m c) n) (32 * (t / 32)) 31
    (fun h i => (step_apply m c ⟨_, h⟩ (k0_pay1 (F := Ideal)) i).trans (congrArg (· + blockSum (logits m c) (thresholds m c) (32 * (t / 32))) (pay1_apply i)))
    (fun n h acc i _ _ => step_apply m c ⟨n, h⟩ acc i)
    (t % 32) (by omega) h' z

/-- After a core's last tile the accumulator holds the core's sum, -/
theorem acc_last (c : Dev nD) (t : Fin cfg0.N) (h1 : t.val % 32 = 31) (z : S1x1.Idx) :
    (outsAt0 m c t.val t.isLt).2 z = 0 + coreSum (logits m c) (thresholds m c) (t.val / 32) := by
  rw [acc_fold m c t.val t.isLt z, h1]
  rfl

/-- and so does the output block the body stores there. -/
theorem out_last_apply (c : Dev nD) (t : Fin cfg0.N) (h1 : t.val % 32 = 31) (y : S1x1x1.Idx) :
    (outsAt0 m c t.val t.isLt).1 y = 0 + coreSum (logits m c) (thresholds m c) (t.val / 32) := by
  have h0 : ¬t.val % 32 = 0 := by omega
  rw [out_flush m c t h0 h1, pay3_apply]
  exact acc_last m c t h1 _

end Cert.KernelIdeal.Accum

end
-- ==== Proof.OutArray.lean ====
/-
  The kernel's result.  The output array is [2, 1, 1]: core c's block is (c, 0, 0), written back once,
  after the core's last tile (points 31 and 63), and what is written there is 0 + coreSum c (Accum.lean).
  The two blocks cover the array, so after the region it holds the two cores' sums.  The host then adds
  the array up from zero and divides by the word 0x4C800000; the two cores' sums make the total
  (Spec.lean), so the program's result is the mean loss.
-/
import proofs.«105509_j6648609374567_2_alg».proof.Proof.Accum

set_option maxRecDepth 16384

noncomputable section

open Idealize.ShloMosaic Idealize.ShloMosaic.TcCoe Idealize.SL.Sem

namespace Cert.KernelIdeal.OutArray

open Cert.KernelIdeal Cert.KernelIdeal.Gen Idealize.ShloMosaic.ValueIdx Cert.Loss
open Cert.KernelIdeal.Payload Cert.KernelIdeal.Accum

variable (m : (ℓ : Loc nD τ sig) → Buf (Elt Ideal) ℓ) (ρ : Dev nD → PrngReg)

/-- The output array after the region: entry (k, 0, 0) is core k's sum, from zero. -/
def partials (c : Dev nD) : S2x1x1.Idx → EReal :=
  fun i => 0 + coreSum (logits m c) (thresholds m c) (i 0).val

/-- The output window's block at point t is (t / 32, 0, 0): decided over the 64 points. -/
theorem out_idx : ∀ t : Fin cfg0.N, win0_2.index t (0 : Fin 3) = t.val / 32 ∧ win0_2.index t (1 : Fin 3) = 0
      ∧ win0_2.index t (2 : Fin 3) = 0 :=
  (by decide +kernel : ∀ t : Fin grid0.N, win0_2.index t (0 : Fin 3) = t.val / 32 ∧ win0_2.index t (1 : Fin 3) = 0
      ∧ win0_2.index t (2 : Fin 3) = 0)

/-- What a write-back writes is its block of `partials`. -/
theorem flushed_eq (c : Dev nD) (t : Fin cfg0.N) (hf : (cfg0.win 2).flush t = true) :
    (dats m 0 c).flushed 2 t = ((cfg0.win 2).blk t).view.read (Elt Ideal) (partials m c) := by
  have h31 : t.val % 32 = 31 := (flush0_2 t).mp hf
  obtain ⟨e0, -, -⟩ := out_idx t
  show (cfg0.win 2).cut (grid0.coords t) ((dats m 0 c).after 2 t) = _
  rw [after0_2]
  funext y
  rw [View.read_apply]
  show (outsAt0 m c t.val t.isLt).1 y = 0 + coreSum _ _ ((((cfg0.win 2).blk t).view.emb y) 0).val
  rw [out_last_apply m c t h31 y]
  congr 2
  show t.val / 32 = win0_2.index t 0 * 1 + 1 * (y 0).val
  have : (y 0).val < 1 := (y 0).isLt
  rw [e0]
  omega

/-- An index of the array is in point t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v1).slice (win0_2.rect t)).set ↔ _
  rw [View.set_slice_whole, Rect.mem_set_unit]
  exact Iff.rfl

/-- The two written blocks cover the array: it ends at `partials`. -/
theorem final (c : Dev nD) : (dats m 0 c).arrAt 2 cfg0.N = partials m c :=
  (dats m 0 c).arrAt_eq_of_cover 2 (partials m c) (flushed_eq m c) fun i => by
    have hi0 : (i 0 : Nat) < 2 := (i 0).isLt
    have hi1 : (i 1 : Nat) < 1 := (i 1).isLt
    have hi2 : (i 2 : Nat) < 1 := (i 2).isLt
    have hN : cfg0.N = 64 := N_0
    obtain ⟨t, ht⟩ : ∃ t : Fin cfg0.N, t.val = 32 * (i 0 : Nat) + 31 := ⟨⟨32 * (i 0 : Nat) + 31, by omega⟩, rfl⟩
    obtain ⟨e0, e1, e2⟩ := out_idx t
    refine ⟨t, (flush0_2 t).mpr (by omega), ?_⟩
    rw [mem_blk]
    intro a
    match a with
    | ⟨0, _⟩ => show win0_2.index t (0 : Fin 3) * 1 ≤ (i 0 : Nat) ∧ (i 0 : Nat) < win0_2.index t (0 : Fin 3) * 1 + 1; omega
    | ⟨1, _⟩ => show win0_2.index t (1 : Fin 3) * 1 ≤ (i 1 : Nat) ∧ (i 1 : Nat) < win0_2.index t (1 : Fin 3) * 1 + 1; omega
    | ⟨2, _⟩ => show win0_2.index t (2 : Fin 3) * 1 ≤ (i 2 : Nat) ∧ (i 2 : Nat) < win0_2.index t (2 : Fin 3) * 1 + 1; omega

/-- The array's indices are the two cores. -/
def coreIdx : Fin 2 ≃ (⟨3, ![2, 1, 1]⟩ : Shape).Idx where
  toFun a := ix3 a (0 : Fin 1) (0 : Fin 1)
  invFun i := i 0
  left_inv a := rfl
  right_inv i := by
    funext d
    match d with
    | ⟨0, _⟩ => rfl
    | ⟨1, _⟩ => exact Fin.ext (by have : (i 1).val < 1 := (i 1).isLt; show 0 = (i 1).val; omega)
    | ⟨2, _⟩ => exact Fin.ext (by have : (i 2).val < 1 := (i 2).isLt; show 0 = (i 2).val; omega)

theorem sum_cores (f : (⟨3, ![2, 1, 1]⟩ : Shape).Idx → EReal) :
    ∑ i, f i = f (ix3 (0 : Fin 2) (0 : Fin 1) (0 : Fin 1)) + f (ix3 (1 : Fin 2) (0 : Fin 1) (0 : Fin 1)) := by
  rw [← Equiv.sum_comp coreIdx f, Fin.sum_univ_two]
  rfl

/-- The host's tail over an output array: its sum from zero, divided by the word both programs print. -/
def tail (out : S2x1x1.Idx → EReal) : S_.Idx → EReal :=
  Host.divf (F := Ideal) (Host.reduceAdd (F := Ideal) out (constant (F := Ideal) S_ .f32 0x00000000#32) reducesTo_S2x1x1_S_d0_1_2 h_S_)
    (constant (F := Ideal) S_ .f32 0x4C800000#32)

/-- Over the two cores' sums the tail is the mean loss. -/
theorem tail_partials (c : Dev nD) (j : S_.Idx) : tail (partials m c) j = mean (logits m c) (thresholds m c) := by
  show Ideal.div (Ideal.hostReduceAdd reducesTo_S2x1x1_S_d0_1_2 (partials m c) (Ideal.ofBits .f32 0x00000000#32) j)
    (Ideal.ofBits .f32 0x4C800000#32) = _
  rw [Ideal.hostReduceAdd_total reducesTo_S2x1x1_S_d0_1_2 (fun b => b.elim0), sum_cores]
  unfold partials mean
  rw [← cores_total]
  show Ideal.div (_ + ((0 + coreSum _ _ 0) + (0 + coreSum _ _ 1))) _ = _
  rw [zero_add, zero_add]

/-- The program's result buffer after the run. -/
theorem result (c : Dev nD) :
    Pipeline.afterTail₀ cfgs (dats m) 0 (V0 m) [hostOps1] c main_v3 = fun _ => mean (logits m c) (thresholds m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = partials m c :=
    (Pipeline.withArrays_arr spec0 launch0.win.arr_inj c _ _ 2).trans (final m c)
  rw [e]
  funext j
  exact tail_partials m c j

/-- THE RUN of the idealized kernel, read: every weakly fair execution ends with the result buffer at the
    mean loss of the arguments and the arguments unchanged. -/
theorem run : θ_run defs (onTc (τ := τ) (main (F := Ideal))) ⟨m, fun _ => 0, ρ⟩ fun r => ∀ c : Dev nD,
      r.2.mem ((c : Thread nD τ).loc main_v3) = (fun _ => mean (logits m c) (thresholds m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.OutArray

end
-- ==== Proof.RefValue.lean ====
/-
  The reference's result is the mean loss.  Its last stage divides, by the word 0x4C800000, the sum from
  zero of its entry array over both axes; its entry at (i, q) is the entry of Entry.lean at the logit
  x(i, q) and the mask bit "q < t(i)" — the column numbers an iota broadcast along the rows, the
  thresholds broadcast along the columns.
-/
import proofs.«105509_j6648609374567_2_alg».proof.Proof.Gen.ReferenceIdeal.Read
import proofs.«105509_j6648609374567_2_alg».proof.Proof.Spec

noncomputable section

namespace Cert.Loss.Ref

open Idealize.ShloMosaic Idealize.ShloMosaic.ValueIdx Cert.ReferenceIdeal Cert.ReferenceIdeal.Read Cert.Loss

/-- The reference's entry array at row a, column b. -/
theorem entry_at (x0 : (⟨S8192x8192, .f32⟩ : BufTy).Contents (Elt Ideal)) (x1 : (⟨S8192, .i32⟩ : BufTy).Contents (Elt Ideal))
    (a b : Fin 8192) :
    val_main_v9 (F := Ideal) x0 x1 (ix2 a b) = entry (x0 (ix2 a b)) (maskBit b.val (x1 (ix1 a))) := by
  have e1 : idx_main_v2 (idx_main_v4 (ix2 a b)) = ix1 a := funext fun d => match d with | ⟨0, _⟩ => rfl
  simp only [val_main_v9_apply, val_main_v7_apply, val_main_v8_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v6_apply, val_main_v5_apply,
    val_main_v3_apply, val_main_v1_apply, val_main_v0_apply, val_main_v4_apply, val_main_v2_apply]
  rw [e1]
  exact ref_entry _ _

/-- The reference's result, at its one index, is the mean loss of its two arguments. -/
theorem result (x0 : (⟨S8192x8192, .f32⟩ : BufTy).Contents (Elt Ideal)) (x1 : (⟨S8192, .i32⟩ : BufTy).Contents (Elt Ideal))
    (i : S_.Idx) : val_main_v11 (F := Ideal) x0 x1 i = mean x0 x1 := by
  rw [val_main_v11_apply, val_main_v10_apply, val_main_cst_apply, val_main_cst_0_apply, sum_idx2]
  simp only [entry_at]
  rfl

end Cert.Loss.Ref

end
-- ==== Proof.lean ====
/-
  The mean of a masked logistic loss: for logits x[8192, 8192] and row thresholds t[8192],

      mean over all (i, q) of   softplus x(i, q) − (x(i, q) if q < t(i) else 0).

  The reference forms the 0/1 mask as an array, multiplies, subtracts and takes jnp.mean.  The kernel
  walks the rows in blocks of 128 on a (2 cores) × (32 tiles) grid, selects instead of multiplying,
  adds each block up into a per-core accumulator kept between grid points, writes each core's sum
  once, and lets the host add the two sums and divide.

  Over the extended reals the two are the same number.  Entry by entry the two spellings agree
  (Proof/Entry.lean).  The reference's result is (0 + the sum of all entries) / 2^26 (Proof/RefValue.lean,
  over the generated read of its operations).  On the kernel's side a run of the body adds its block's
  entries to the accumulator (Proof/Pieces.lean, Proof/Payload.lean), the block of point t is rows
  128 t … 128 t + 127 (Proof/Blocks.lean), so by induction along a core's tiles the accumulator ends at
  the core's sum (Proof/Accum.lean), the output array ends at the two cores' sums and the host's tail
  makes the same quotient of their total (Proof/OutArray.lean).  The regrouping of the sum
  (Proof/Spec.lean) uses only that addition is commutative and associative, so the precondition that
  the logits are finite is never opened.  Nothing was rewritten in the kernel's idealization, so that
  conjunct is trivial; the two kernel frames are the generated ones, and the reference's frame is its
  generated run with the result dropped.
-/
import proofs.«105509_j6648609374567_2_alg».proof.Defs
import proofs.«105509_j6648609374567_2_alg».proof.Proof.Gen.Kernel
import proofs.«105509_j6648609374567_2_alg».proof.Proof.Gen.Kernel.Frame
import proofs.«105509_j6648609374567_2_alg».proof.Proof.Gen.KernelIdeal
import proofs.«105509_j6648609374567_2_alg».proof.Proof.Gen.KernelIdeal.Frame
import proofs.«105509_j6648609374567_2_alg».proof.Proof.Gen.ReferenceIdeal
import proofs.«105509_j6648609374567_2_alg».proof.Proof.Gen.ReferenceIdeal.Run
import proofs.«105509_j6648609374567_2_alg».proof.Proof.Gen.ReferenceIdeal.Read
import proofs.«105509_j6648609374567_2_alg».proof.Proof.Gen.Pre_finite_inputs
import proofs.«105509_j6648609374567_2_alg».proof.Proof.OutArray
import proofs.«105509_j6648609374567_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- Both programs end at the mean loss of arguments that agree. -/
theorem algebraic : Cert.algebraic_KernelIdeal_ReferenceIdeal := by
  intro m ρ m' ρ' _ hagree
  refine ⟨fun c => fun _ => Cert.Loss.mean (Cert.KernelIdeal.Accum.logits m c) (Cert.KernelIdeal.Accum.thresholds m c),
    Cert.KernelIdeal.OutArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  funext j
  exact Cert.Loss.Ref.result _ _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
